-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x16384 : Shape := ⟨2, ![1024, 16384]⟩
abbrev S16384x1024 : Shape := ⟨2, ![16384, 1024]⟩
abbrev S16384 : Shape := ⟨1, ![16384]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S16384 : S_.BroadcastsInDim S16384 (![] : Fin 0 → Fin S16384.rank)
  reducesTo_S16384_S_d0 : S16384.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S16384 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  main_v28

def fn {F : FTy → Type} [FloatOps F] (main_arg0 : FVec F S8192x1024 .f32) (main_arg1 : FVec F S1024x16384 .f32) (main_arg2 : FVec F S16384x1024 .f32) (main_arg3 : FVec F S16384 .f32) (main_arg4 : FVec F S1024 .f32) (main_arg5 : FVec F S16384 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg4 main_arg5 main_v13 main_v16
-- ==== Kernel.lean ====
abbrev S8192x1024 : Shape := ⟨2, ![8192, 1024]⟩
abbrev S1024x16384 : Shape := ⟨2, ![1024, 16384]⟩
abbrev S16384x1024 : Shape := ⟨2, ![16384, 1024]⟩
abbrev S16384 : Shape := ⟨1, ![16384]⟩
abbrev S1024 : Shape := ⟨1, ![1024]⟩
abbrev S1x16384 : Shape := ⟨2, ![1, 16384]⟩
abbrev S1x1024 : Shape := ⟨2, ![1, 1024]⟩
abbrev S8192x16384 : Shape := ⟨2, ![8192, 16384]⟩
abbrev S2048x1024 : Shape := ⟨2, ![2048, 1024]⟩
abbrev S1024x512 : Shape := ⟨2, ![1024, 512]⟩
abbrev S1x512 : Shape := ⟨2, ![1, 512]⟩
abbrev S512x1024 : Shape := ⟨2, ![512, 1024]⟩
abbrev S2048x512 : Shape := ⟨2, ![2048, 512]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x16384, .f32⟩
  | .hbm, ⟨2, _⟩ => ⟨S16384x1024, .f32⟩
  | .hbm, ⟨3, _⟩ => ⟨S16384, .f32⟩
  | .hbm, ⟨4, _⟩ => ⟨S1024, .f32⟩
  | .hbm, ⟨5, _⟩ => ⟨S16384, .f32⟩
  | .hbm, ⟨6, _⟩ => ⟨S1x16384, .f32⟩
  | .hbm, ⟨7, _⟩ => ⟨S1x16384, .f32⟩
  | .hbm, ⟨8, _⟩ => ⟨S1x1024, .f32⟩
  | .hbm, ⟨9, _⟩ => ⟨S16384x1024, .bf16⟩
  | .hbm, ⟨10, _⟩ => ⟨S8192x1024, .f32⟩
  | .hbm, ⟨11, _⟩ => ⟨S8192x16384, .f32⟩
  | .local _ .vmem, ⟨0, _⟩ => ⟨S2048x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S2048x1024, .f32⟩
  | .local _ .vmem, ⟨11, _⟩ => ⟨S2048x512, .f32⟩
  | .local _ .vmem, ⟨12, _⟩ => ⟨S2048x512, .f32⟩
  | .local _ .vmem, ⟨13, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v26 : BitVec 1 := Scalar.cmpi .eq arg1 c31_i32
  let v27 : BitVec 32 := Scalar.extui v26
  let c0_i32_18 : BitVec 32 := 0#32
  let v28 : BitVec 1 := Scalar.cmpi .ne v27 c0_i32_18
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S16384_S1x16384 : S16384.ShapeCasts S1x16384
  shapeCasts_S1024_S1x1024 : S1024.ShapeCasts S1x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x512_S2048x512_1_0_0_1_n_n_wf : DotDims.WF S2048x1024 S1024x512 S2048x512 [1] [0] [0] [1] [] []
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x16384.size a
  hwx0_1 : ∀ i : grid0.Coords, EltTy.bits .f32 = 32 ∨ (Rect.block (s := S1024x16384) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S8192x1024.size a
  hwx0_6 : ∀ i : grid0.Coords, EltTy.bits .f32 = 32 ∨ (Rect.block (s := S8192x1024) S2048x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S8192x16384.size a
  hwx0_7 : ∀ i : grid0.Coords, EltTy.bits .f32 = 32 ∨ (Rect.block (s := S8192x16384) S2048x512.size (cc0_transform_7 i) (hinb0_7 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S2048x1024.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S2048x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun _ => false | ⟨_ + 8, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x16384 : Shape := ⟨2, ![1024, 16384]⟩
abbrev S16384x1024 : Shape := ⟨2, ![16384, 1024]⟩
abbrev S16384 : Shape := ⟨1, ![16384]⟩
abbrev S1024 : Shape := ⟨1, ![1024]⟩
abbrev S8192x16384 : Shape := ⟨2, ![8192, 16384]⟩
abbrev S1x16384 : Shape := ⟨2, ![1, 16384]⟩
abbrev S_ : Shape := ⟨0, ![]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x16384, .f32⟩
  | .hbm, ⟨2, _⟩ => ⟨S16384x1024, .f32⟩
  | .hbm, ⟨3, _⟩ => ⟨S16384, .f32⟩
  | .hbm, ⟨4, _⟩ => ⟨S1024, .f32⟩
  | .hbm, ⟨5, _⟩ => ⟨S16384, .f32⟩
  | .hbm, ⟨6, _⟩ => ⟨S8192x16384, .f32⟩
  | .hbm, ⟨7, _⟩ => ⟨S1x16384, .f32⟩
  | .hbm, ⟨8, _⟩ => ⟨S8192x16384, .f32⟩
  | .hbm, ⟨9, _⟩ => ⟨S8192x16384, .f32⟩
  | .hbm, ⟨10, _⟩ => ⟨S1x16384, .f32⟩
  | .hbm, ⟨11, _⟩ => ⟨S8192x16384, .f32⟩
  | .hbm, ⟨12, _⟩ => ⟨S8192x16384, .i1⟩
  | .hbm, ⟨13, _⟩ => ⟨S_, .f32⟩
  | .hbm, ⟨14, _⟩ => ⟨S8192x16384, .f32⟩
  | .hbm, ⟨15, _⟩ => ⟨S8192x16384, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x16384_S8192x16384_1_0_0_1_n_n_wf : DotDims.WF S8192x1024 S1024x16384 S8192x16384 [1] [0] [0] [1] [] []
  dot_S8192x16384_S16384x1024_S8192x1024_1_0_0_1_n_n_wf : DotDims.WF S8192x16384 S16384x1024 S8192x1024 [1] [0] [0] [1] [] []

variable [Facts₀]

def dot_S8192x1024_S1024x16384_S8192x16384_1_0_0_1_n_n : DotDims S8192x1024 S1024x16384 S8192x16384 where
  lhsContracting := [1]
  rhsContracting := [0]
  lhsNonContracting := [0]
  rhsNonContracting := [1]
  lhsBatch := []
  rhsBatch := []
  wf := dot_S8192x1024_S1024x16384_S8192x16384_1_0_0_1_n_n_wf
def dot_S8192x16384_S16384x1024_S8192x1024_1_0_0_1_n_n : DotDims S8192x16384 S16384x1024 S8192x1024 where
  lhsContracting := [1]
  rhsContracting := [0]
  lhsNonContracting := [0]
  rhsNonContracting := [1]
  lhsBatch := []
  rhsBatch := []
  wf := dot_S8192x16384_S16384x1024_S8192x1024_1_0_0_1_n_n_wf

class Facts : Prop extends Facts₀ where

variable [Facts]
-- ==== Proof.BodyValues.lean ====
import proofs.«161145_j45801531244816_2_alg».proof.Proof.Gen.KernelIdeal.Frame
import Idealize.ShloMosaic.Lib.Pipeline.Value
import Idealize.ShloMosaic.Lib.Tactic

/-!
# What one grid point leaves behind, as values

The grid is 4 row tiles by 32 feature blocks. At a point the body holds a row tile `x0` [2048, 1024] of the activations, a
column block `x1` [1024, 512] of the encoder weights with its biases `x2` and thresholds `x3` [1, 512], a row block `x4`
[512, 1024] of the decoder weights and the output bias `x5` [1, 1024]. It always writes the gated code block (the pure
term `k0_pay2 x0 x1 x2 x3`) and replaces the running decode sum `acc` by `k0_pay3 x0 x1 x2 x3 acc x4` (`acc` plus the code block
times the decoder block). Three cases: at a tile's first block the running sum starts from the zero block `k0_pay1`; at a
middle block it continues from what the previous point left; at the last block it continues likewise and also writes the
reconstruction block `k0_pay4 acc' x5`, the new running sum plus the output bias.

Each lemma reads the stores a case made back as one value: every store covers its whole buffer, so the last one is what
the buffer holds, and a load placed after a covering store reads that store's value.
-/

set_option maxRecDepth 16384

noncomputable section

open Idealize.ShloMosaic Idealize.ShloMosaic.TcCoe Idealize.SL.Sem

namespace Cert.KernelIdeal.BodyValues
open Cert.KernelIdeal Cert.KernelIdeal.Gen
variable {F : FTy → Type} [FloatOps F]

/-- The zero offsets of a whole-buffer access. -/
theorem hz : (![0, 0] : Fin 2 → Nat) = fun _ => 0 := funext fun a => by fin_cases a <;> rfl

/-- Middle block: the running sum becomes the previous one plus this block's contribution. -/
theorem acc_mid (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x512 .f32) (harg9 : arg9.IsWhole) (arg10 : Memref sig .tc .vmem S2048x1024 .f32) (harg10 : arg10.IsWhole) (hc0 : ¬cond0_0 i) (hc1 : ¬cond0_1 i) (x0 : Vec F S2048x1024 .f32) (x1 : Vec F S1024x512 .f32) (x2 : Vec F S1x512 .f32) (x3 : Vec F S1x512 .f32) (x4 : Vec F S512x1024 .bf16) (x5 : Vec F S1x1024 .f32) (xs0 : Vec F S2048x1024 .f32) :
    sout0_B_0 c i arg2 harg2 arg3 harg3 arg4 harg4 arg5 harg5 arg6 harg6 arg7 harg7 arg8 harg8 arg9 harg9 arg10 harg10 hc0 hc1 x0 x1 x2 x3 x4 x5 xs0 = k0_pay3 x0 x1 x2 x3 xs0 x4 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  rw [View.canon_unit_zero hz]
  simp only [View.readAt_eq_ld, harg2.read_unread, harg3.read_unread, harg4.read_unread, harg5.read_unread, harg6.read_unread, harg7.read_unread, harg10.read_unread, View.ld_unit_zero (S := S2048x1024) hz, View.ld_unit_zero (S := S1024x512) hz, View.ld_unit_zero (S := S1x512) hz, View.ld_unit_zero (S := S512x1024) hz, View.ld_unit_zero (S := S1x1024) hz]

/-- Middle block: the code block written is the gated pre-activation of the point's inputs. -/
theorem code_mid (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x512 .f32) (harg9 : arg9.IsWhole) (arg10 : Memref sig .tc .vmem S2048x1024 .f32) (harg10 : arg10.IsWhole) (hc0 : ¬cond0_0 i) (hc1 : ¬cond0_1 i) (x0 : Vec F S2048x1024 .f32) (x1 : Vec F S1024x512 .f32) (x2 : Vec F S1x512 .f32) (x3 : Vec F S1x512 .f32) (x4 : Vec F S512x1024 .bf16) (x5 : Vec F S1x1024 .f32) (xs0 : Vec F S2048x1024 .f32) :
    out0_B_7 c i arg2 harg2 arg3 harg3 arg4 harg4 arg5 harg5 arg6 harg6 arg7 harg7 arg8 harg8 arg9 harg9 arg10 harg10 hc0 hc1 x0 x1 x2 x3 x4 x5 xs0 = k0_pay2 x0 x1 x2 x3 := by
  unfold out0_B_7
  rw [View.read_writes_eq_canon _ _ _ (cover0_B_7 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  rw [View.canon_unit_zero hz]
  simp only [View.readAt_eq_ld, harg2.read_unread, harg3.read_unread, harg4.read_unread, harg5.read_unread, harg6.read_unread, harg7.read_unread, harg10.read_unread, View.ld_unit_zero (S := S2048x1024) hz, View.ld_unit_zero (S := S1024x512) hz, View.ld_unit_zero (S := S1x512) hz, View.ld_unit_zero (S := S512x1024) hz, View.ld_unit_zero (S := S1x1024) hz]

/-- Last block: the running sum is updated as at a middle block. -/
theorem acc_last (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x512 .f32) (harg9 : arg9.IsWhole) (arg10 : Memref sig .tc .vmem S2048x1024 .f32) (harg10 : arg10.IsWhole) (hc0 : ¬cond0_0 i) (hc1 : cond0_1 i) (x0 : Vec F S2048x1024 .f32) (x1 : Vec F S1024x512 .f32) (x2 : Vec F S1x512 .f32) (x3 : Vec F S1x512 .f32) (x4 : Vec F S512x1024 .bf16) (x5 : Vec F S1x1024 .f32) (xs0 : Vec F S2048x1024 .f32) :
    sout0_C_0 c i arg2 harg2 arg3 harg3 arg4 harg4 arg5 harg5 arg6 harg6 arg7 harg7 arg8 harg8 arg9 harg9 arg10 harg10 hc0 hc1 x0 x1 x2 x3 x4 x5 xs0 = k0_pay3 x0 x1 x2 x3 xs0 x4 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, View.ld_unit_zero (S := S2048x1024) hz, View.ld_unit_zero (S := S1024x512) hz, View.ld_unit_zero (S := S1x512) hz, View.ld_unit_zero (S := S512x1024) hz, View.ld_unit_zero (S := S1x1024) hz]

/-- Last block: the code block. -/
theorem code_last (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x512 .f32) (harg9 : arg9.IsWhole) (arg10 : Memref sig .tc .vmem S2048x1024 .f32) (harg10 : arg10.IsWhole) (hc0 : ¬cond0_0 i) (hc1 : cond0_1 i) (x0 : Vec F S2048x1024 .f32) (x1 : Vec F S1024x512 .f32) (x2 : Vec F S1x512 .f32) (x3 : Vec F S1x512 .f32) (x4 : Vec F S512x1024 .bf16) (x5 : Vec F S1x1024 .f32) (xs0 : Vec F S2048x1024 .f32) :
    out0_C_7 c i arg2 harg2 arg3 harg3 arg4 harg4 arg5 harg5 arg6 harg6 arg7 harg7 arg8 harg8 arg9 harg9 arg10 harg10 hc0 hc1 x0 x1 x2 x3 x4 x5 xs0 = k0_pay2 x0 x1 x2 x3 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  rw [View.canon_unit_zero hz]
  simp only [View.readAt_eq_ld, harg2.read_unread, harg3.read_unread, harg4.read_unread, harg5.read_unread, harg6.read_unread, harg7.read_unread, harg10.read_unread, View.ld_unit_zero (S := S2048x1024) hz, View.ld_unit_zero (S := S1024x512) hz, View.ld_unit_zero (S := S1x512) hz, View.ld_unit_zero (S := S512x1024) hz, View.ld_unit_zero (S := S1x1024) hz]

/-- Last block: the reconstruction block is the completed running sum plus the output bias. -/
theorem recon_last (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x512 .f32) (harg9 : arg9.IsWhole) (arg10 : Memref sig .tc .vmem S2048x1024 .f32) (harg10 : arg10.IsWhole) (hc0 : ¬cond0_0 i) (hc1 : cond0_1 i) (x0 : Vec F S2048x1024 .f32) (x1 : Vec F S1024x512 .f32) (x2 : Vec F S1x512 .f32) (x3 : Vec F S1x512 .f32) (x4 : Vec F S512x1024 .bf16) (x5 : Vec F S1x1024 .f32) (xs0 : Vec F S2048x1024 .f32) :
    out0_C_6 c i arg2 harg2 arg3 harg3 arg4 harg4 arg5 harg5 arg6 harg6 arg7 harg7 arg8 harg8 arg9 harg9 arg10 harg10 hc0 hc1 x0 x1 x2 x3 x4 x5 xs0 = k0_pay4 (k0_pay3 x0 x1 x2 x3 xs0 x4) x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz, View.readCov_unit_zero (S := S2048x1024) _ hz]
  simp only [View.readAt_eq_ld, harg2.read_unread, harg3.read_unread, harg4.read_unread, harg5.read_unread, harg6.read_unread, harg7.read_unread, harg10.read_unread, View.ld_unit_zero (S := S2048x1024) hz, View.ld_unit_zero (S := S1024x512) hz, View.ld_unit_zero (S := S1x512) hz, View.ld_unit_zero (S := S512x1024) hz, View.ld_unit_zero (S := S1x1024) hz]

/-- First block: the running sum starts from the zero block. -/
theorem acc_first (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x512 .f32) (harg9 : arg9.IsWhole) (arg10 : Memref sig .tc .vmem S2048x1024 .f32) (harg10 : arg10.IsWhole) (hc0 : cond0_0 i) (hc1 : ¬cond0_1 i) (x0 : Vec F S2048x1024 .f32) (x1 : Vec F S1024x512 .f32) (x2 : Vec F S1x512 .f32) (x3 : Vec F S1x512 .f32) (x4 : Vec F S512x1024 .bf16) (x5 : Vec F S1x1024 .f32) :
    sout0_A_0 c i arg2 harg2 arg3 harg3 arg4 harg4 arg5 harg5 arg6 harg6 arg7 harg7 arg8 harg8 arg9 harg9 arg10 harg10 hc0 hc1 x0 x1 x2 x3 x4 x5 = k0_pay3 x0 x1 x2 x3 (k0_pay1 (F := F)) x4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S2048x1024) hz, View.readCov_unit_zero (S := S2048x1024) _ hz]
  simp only [View.readAt_eq_ld, harg2.read_unread, harg3.read_unread, harg4.read_unread, harg5.read_unread, harg6.read_unread, harg7.read_unread, harg10.read_unread, View.ld_unit_zero (S := S2048x1024) hz, View.ld_unit_zero (S := S1024x512) hz, View.ld_unit_zero (S := S1x512) hz, View.ld_unit_zero (S := S512x1024) hz, View.ld_unit_zero (S := S1x1024) hz]

/-- First block: the code block. -/
theorem code_first (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x512 .f32) (harg9 : arg9.IsWhole) (arg10 : Memref sig .tc .vmem S2048x1024 .f32) (harg10 : arg10.IsWhole) (hc0 : cond0_0 i) (hc1 : ¬cond0_1 i) (x0 : Vec F S2048x1024 .f32) (x1 : Vec F S1024x512 .f32) (x2 : Vec F S1x512 .f32) (x3 : Vec F S1x512 .f32) (x4 : Vec F S512x1024 .bf16) (x5 : Vec F S1x1024 .f32) :
    out0_A_7 c i arg2 harg2 arg3 harg3 arg4 harg4 arg5 harg5 arg6 harg6 arg7 harg7 arg8 harg8 arg9 harg9 arg10 harg10 hc0 hc1 x0 x1 x2 x3 x4 x5 = k0_pay2 x0 x1 x2 x3 := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 x0 x1 x2 x3 x4 x5)]
  unfold kernelRun0_A
  dsimp only
  rw [View.canon_unit_zero hz]
  simp only [View.readAt_eq_ld, harg2.read_unread, harg3.read_unread, harg4.read_unread, harg5.read_unread, harg6.read_unread, harg7.read_unread, harg10.read_unread, View.ld_unit_zero (S := S2048x1024) hz, View.ld_unit_zero (S := S1024x512) hz, View.ld_unit_zero (S := S1x512) hz, View.ld_unit_zero (S := S512x1024) hz, View.ld_unit_zero (S := S1x1024) hz]

end Cert.KernelIdeal.BodyValues
end
-- ==== Proof.Blocks.lean ====
import proofs.«161145_j45801531244816_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

/-!
# The input blocks of a grid point, read at coordinates

Point `t` of the 4 × 32 grid works on row tile `t / 32` and feature block `t % 32`. Its six input blocks are rectangles of the
argument arrays: rows `2048 * (t / 32) + p` of the activations; columns `512 * (t % 32) + q` of the encoder weights, of the
encoder bias and of the thresholds; rows `512 * (t % 32) + q` of the decoder weights; and the whole output bias. Three of the
arrays reach the region through a reshape of a vector to a one-row matrix, and the decoder weights through a change of float
format, which is the identity on extended reals: the lemmas below read through these down to the argument arrays themselves.
-/

set_option maxRecDepth 16384

noncomputable section
open Idealize.ShloMosaic Idealize.ShloMosaic.TcCoe Idealize.SL.Sem Idealize.ShloMosaic.ValueIdx

namespace Cert.KernelIdeal.Blocks
open Cert.KernelIdeal Cert.KernelIdeal.Gen
variable (m : (ℓ : Loc nD τ sig) → Buf (Elt Ideal) ℓ)

/-- Which block of each array point `t` works on: the row tile is `t / 32`, the feature block `t % 32`. -/
theorem idx_facts : ∀ t : Fin cfg0.N,
    win0_0.index t (0 : Fin 2) = t.val / 32 ∧ win0_0.index t (1 : Fin 2) = 0
    ∧ win0_1.index t (0 : Fin 2) = 0 ∧ win0_1.index t (1 : Fin 2) = t.val % 32
    ∧ win0_2.index t (0 : Fin 2) = 0 ∧ win0_2.index t (1 : Fin 2) = t.val % 32
    ∧ win0_3.index t (0 : Fin 2) = 0 ∧ win0_3.index t (1 : Fin 2) = t.val % 32
    ∧ win0_4.index t (0 : Fin 2) = t.val % 32 ∧ win0_4.index t (1 : Fin 2) = 0
    ∧ win0_5.index t (0 : Fin 2) = 0 ∧ win0_5.index t (1 : Fin 2) = 0
    ∧ win0_6.index t (0 : Fin 2) = t.val / 32 ∧ win0_6.index t (1 : Fin 2) = 0
    ∧ win0_7.index t (0 : Fin 2) = t.val / 32 ∧ win0_7.index t (1 : Fin 2) = t.val % 32 :=
  (by decide +kernel : ∀ t : Fin grid0.N, _)

/-! ## The arrays written before the region -/

/-- The encoder bias as a one-row matrix. -/
theorem bias_row (c : Dev nD) : (V m c main_v0 : S1x16384.Idx → Elt Ideal .f32)
    = shapeCast S1x16384 (m ((c : Thread nD τ).loc main_arg3)) shapeCasts_S16384_S1x16384 := by
  dsimp only [V, hostOps0]; after_results; rfl

/-- The thresholds as a one-row matrix. -/
theorem thresh_row (c : Dev nD) : (V m c main_v1 : S1x16384.Idx → Elt Ideal .f32)
    = shapeCast S1x16384 (m ((c : Thread nD τ).loc main_arg5)) shapeCasts_S16384_S1x16384 := by
  dsimp only [V, hostOps0]; after_results; rfl

/-- The output bias as a one-row matrix. -/
theorem outbias_row (c : Dev nD) : (V m c main_v2 : S1x1024.Idx → Elt Ideal .f32)
    = shapeCast S1x1024 (m ((c : Thread nD τ).loc main_arg4)) shapeCasts_S1024_S1x1024 := by
  dsimp only [V, hostOps0]; after_results; rfl

/-- The decoder weights in the narrower float format: the same extended reals. -/
theorem decoder_cast (c : Dev nD) : (V m c main_v3 : S16384x1024.Idx → Elt Ideal .bf16)
    = (truncf .bf16 (m ((c : Thread nD τ).loc main_arg2)) bitsLt_bf16_f32 : FVec Ideal S16384x1024 .bf16) := by
  dsimp only [V, hostOps0]; after_results

/-- A vector reshaped to one row, read at `(0, j)`, is the vector at `j`. -/
theorem row_of_vec_16384 (v : S16384.Idx → Elt Ideal .f32) (j : Fin 16384) :
    shapeCast S1x16384 v shapeCasts_S16384_S1x16384 (ix2 (0 : Fin 1) j) = v (ix1 j) :=
  shapeCast_apply v _ (ix2 (0 : Fin 1) j) (ix1 j) (by
    rw [Shape.rowMajor_val_one, Shape.rowMajor_val_two]
    show j.val = 0 * 16384 + j.val
    omega)

theorem row_of_vec_1024 (v : S1024.Idx → Elt Ideal .f32) (j : Fin 1024) :
    shapeCast S1x1024 v shapeCasts_S1024_S1x1024 (ix2 (0 : Fin 1) j) = v (ix1 j) :=
  shapeCast_apply v _ (ix2 (0 : Fin 1) j) (ix1 j) (by
    rw [Shape.rowMajor_val_one, Shape.rowMajor_val_two]
    show j.val = 0 * 1024 + j.val
    omega)

/-! ## The six blocks -/

/-- Activations: local row `p` is row `2048 * (t / 32) + p`. -/
theorem acts_blk (c : Dev nD) (t : Fin cfg0.N) (p : Fin 2048) (d : Fin 1024) (n : Fin 8192)
    (hn : n.val = 2048 * (t.val / 32) + p.val) :
    (iblk m c 0 t : Vec Ideal S2048x1024 .f32) (ix2 p d) = m ((c : Thread nD τ).loc main_arg0) (ix2 n d) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 2048 + 1 * p.val = n.val; omega
  | ⟨1, _⟩ => show win0_0.index t (1 : Fin 2) * 1024 + 1 * d.val = d.val; omega

/-- Encoder weights: local column `q` is column `512 * (t % 32) + q`. -/
theorem enc_blk (c : Dev nD) (t : Fin cfg0.N) (d : Fin 1024) (q : Fin 512) (j : Fin 16384)
    (hj : j.val = 512 * (t.val % 32) + q.val) :
    (iblk m c 1 t : Vec Ideal S1024x512 .f32) (ix2 d q) = m ((c : Thread nD τ).loc main_arg1) (ix2 d j) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 1024 + 1 * d.val = d.val; omega
  | ⟨1, _⟩ => show win0_1.index t (1 : Fin 2) * 512 + 1 * q.val = j.val; omega

/-- Encoder bias: local entry `q` is entry `512 * (t % 32) + q`. -/
theorem bias_blk (c : Dev nD) (t : Fin cfg0.N) (q : Fin 512) (j : Fin 16384) (hj : j.val = 512 * (t.val % 32) + q.val) :
    (iblk m c 2 t : Vec Ideal S1x512 .f32) (ix2 (0 : Fin 1) q) = m ((c : Thread nD τ).loc main_arg3) (ix1 j) := by
  obtain ⟨-, -, -, -, e0, e1, -⟩ := idx_facts t
  unfold iblk
  rw [View.read_apply]
  show V m c main_v0 _ = _
  rw [bias_row, ← row_of_vec_16384 (m ((c : Thread nD τ).loc main_arg3)) j]
  congr 1
  funext a
  apply Fin.ext
  match a with
  | ⟨0, _⟩ => show win0_2.index t (0 : Fin 2) * 1 + 1 * 0 = 0; omega
  | ⟨1, _⟩ => show win0_2.index t (1 : Fin 2) * 512 + 1 * q.val = j.val; omega

/-- Thresholds: local entry `q` is entry `512 * (t % 32) + q`. -/
theorem thresh_blk (c : Dev nD) (t : Fin cfg0.N) (q : Fin 512) (j : Fin 16384) (hj : j.val = 512 * (t.val % 32) + q.val) :
    (iblk m c 3 t : Vec Ideal S1x512 .f32) (ix2 (0 : Fin 1) q) = m ((c : Thread nD τ).loc main_arg5) (ix1 j) := by
  obtain ⟨-, -, -, -, -, -, e0, e1, -⟩ := idx_facts t
  unfold iblk
  rw [View.read_apply]
  show V m c main_v1 _ = _
  rw [thresh_row, ← row_of_vec_16384 (m ((c : Thread nD τ).loc main_arg5)) j]
  congr 1
  funext a
  apply Fin.ext
  match a with
  | ⟨0, _⟩ => show win0_3.index t (0 : Fin 2) * 1 + 1 * 0 = 0; omega
  | ⟨1, _⟩ => show win0_3.index t (1 : Fin 2) * 512 + 1 * q.val = j.val; omega

/-- Decoder weights: local row `q` is row `512 * (t % 32) + q`. -/
theorem dec_blk (c : Dev nD) (t : Fin cfg0.N) (q : Fin 512) (d : Fin 1024) (j : Fin 16384)
    (hj : j.val = 512 * (t.val % 32) + q.val) :
    (iblk m c 4 t : Vec Ideal S512x1024 .bf16) (ix2 q d) = m ((c : Thread nD τ).loc main_arg2) (ix2 j d) := by
  obtain ⟨-, -, -, -, -, -, -, -, e0, e1, -⟩ := idx_facts t
  unfold iblk
  rw [View.read_apply]
  show V m c main_v3 _ = _
  rw [decoder_cast]
  show m ((c : Thread nD τ).loc main_arg2) _ = _
  congr 1
  funext a
  apply Fin.ext
  match a with
  | ⟨0, _⟩ => show win0_4.index t (0 : Fin 2) * 512 + 1 * q.val = j.val; omega
  | ⟨1, _⟩ => show win0_4.index t (1 : Fin 2) * 1024 + 1 * d.val = d.val; omega

/-- Output bias: the whole vector, at every point. -/
theorem outbias_blk (c : Dev nD) (t : Fin cfg0.N) (d : Fin 1024) :
    (iblk m c 5 t : Vec Ideal S1x1024 .f32) (ix2 (0 : Fin 1) d) = m ((c : Thread nD τ).loc main_arg4) (ix1 d) := by
  obtain ⟨-, -, -, -, -, -, -, -, -, -, e0, e1, -⟩ := idx_facts t
  unfold iblk
  rw [View.read_apply]
  show V m c main_v2 _ = _
  rw [outbias_row, ← row_of_vec_1024 (m ((c : Thread nD τ).loc main_arg4)) d]
  congr 1
  funext a
  apply Fin.ext
  match a with
  | ⟨0, _⟩ => show win0_5.index t (0 : Fin 2) * 1 + 1 * 0 = 0; omega
  | ⟨1, _⟩ => show win0_5.index t (1 : Fin 2) * 1024 + 1 * d.val = d.val; omega

end Cert.KernelIdeal.Blocks
end
-- ==== Proof.Spec.lean ====
import Idealize.ShloMosaic.PureOps.Ideal
import Idealize.ShloMosaic.PureOps.Ideal.Laws
import Idealize.ShloMosaic.Lib.ValueIdx

/-!
# A gated sparse autoencoder, as functions of its argument arrays

Over the extended reals. For activations `x` [8192, 1024], encoder weights `we` [1024, 16384] with bias `be` and
thresholds `th` [16384], decoder weights `wd` [16384, 1024] with bias `bd` [1024]:

* the pre-activation at row `n`, feature `j` is `(∑ d, x (n, d) * we (d, j)) + be j`;
* the gated code `code (n, j)` keeps the pre-activation where it exceeds `th j` and is the zero word elsewhere;
* the reconstruction at `(n, d)` is `(∑ j, code (n, j) * wd (j, d)) + bd d`.

The one law used later: a sum over the 16384 features is the running sum of its 32 consecutive blocks of 512 features, taken
block after block. Only commutativity and associativity of addition enter, so no entry has to be finite.
-/

noncomputable section

namespace Cert.Spec

open Idealize.ShloMosaic Idealize.ShloMosaic.ValueIdx

/-- The float zero word, as the extended real it denotes. -/
abbrev zeroWord : Ideal .f32 := FloatOps.ofBits .f32 0x00000000#32

/-- The pre-activation: row `n` of `x` against column `j` of `we`, plus the feature's bias. -/
def pre (x : (⟨2, ![8192, 1024]⟩ : Shape).Idx → Ideal .f32) (we : (⟨2, ![1024, 16384]⟩ : Shape).Idx → Ideal .f32)
    (be : (⟨1, ![16384]⟩ : Shape).Idx → Ideal .f32) (n : Fin 8192) (j : Fin 16384) : Ideal .f32 :=
  (∑ d : Fin 1024, x (ix2 n d) * we (ix2 d j)) + be (ix1 j)

/-- The gate: a pre-activation above its threshold passes, any other becomes the zero word. -/
def gate (p t : Ideal .f32) : Ideal .f32 := Scalar.select (FloatOps.cmpf .ogt p t) p zeroWord

/-- The gated code, [8192, 16384]. -/
def code (x : (⟨2, ![8192, 1024]⟩ : Shape).Idx → Ideal .f32) (we : (⟨2, ![1024, 16384]⟩ : Shape).Idx → Ideal .f32)
    (be th : (⟨1, ![16384]⟩ : Shape).Idx → Ideal .f32) : (⟨2, ![8192, 16384]⟩ : Shape).Idx → Ideal .f32 :=
  fun i => gate (pre x we be (i 0) (i 1)) (th (ix1 (i 1)))

/-- The reconstruction, [8192, 1024]: the code against the decoder's column, plus the output bias. -/
def recon (x : (⟨2, ![8192, 1024]⟩ : Shape).Idx → Ideal .f32) (we : (⟨2, ![1024, 16384]⟩ : Shape).Idx → Ideal .f32)
    (wd : (⟨2, ![16384, 1024]⟩ : Shape).Idx → Ideal .f32) (be : (⟨1, ![16384]⟩ : Shape).Idx → Ideal .f32)
    (bd : (⟨1, ![1024]⟩ : Shape).Idx → Ideal .f32) (th : (⟨1, ![16384]⟩ : Shape).Idx → Ideal .f32) :
    (⟨2, ![8192, 1024]⟩ : Shape).Idx → Ideal .f32 :=
  fun i => (∑ j : Fin 16384, code x we be th (ix2 (i 0) j) * wd (ix2 j (i 1))) + bd (ix1 (i 1))

/-! ## Sums over the features, block by block -/

/-- Feature `512 * b + q`: entry `q` of block `b`. -/
def feat (b : Fin 32) (q : Fin 512) : Fin 16384 := ⟨512 * b.val + q.val, by have := b.isLt; have := q.isLt; omega⟩

/-- The sum of `f` over block `b` (zero for a block number past the last). -/
def blockSum {M : Type*} [AddCommMonoid M] (f : Fin 16384 → M) (b : ℕ) : M :=
  if h : b < 32 then ∑ q : Fin 512, f (feat ⟨b, h⟩ q) else 0

/-- The running sum of the first `k + 1` blocks. -/
def partialSum {M : Type*} [AddCommMonoid M] (f : Fin 16384 → M) (k : ℕ) : M :=
  ∑ b ∈ Finset.range (k + 1), blockSum f b

theorem partialSum_zero {M : Type*} [AddCommMonoid M] (f : Fin 16384 → M) :
    partialSum f 0 = ∑ q : Fin 512, f (feat 0 q) := by
  unfold partialSum
  rw [Finset.sum_range_one]
  unfold blockSum
  rw [dif_pos (by decide)]
  rfl

theorem partialSum_succ {M : Type*} [AddCommMonoid M] (f : Fin 16384 → M) (k : ℕ) (h : k + 1 < 32) :
    partialSum f (k + 1) = partialSum f k + ∑ q : Fin 512, f (feat ⟨k + 1, h⟩ q) := by
  unfold partialSum
  rw [Finset.sum_range_succ _ (k + 1)]
  congr 1
  unfold blockSum
  rw [dif_pos h]

/-- All 32 blocks together are the whole sum. -/
theorem partialSum_last {M : Type*} [AddCommMonoid M] (f : Fin 16384 → M) : partialSum f 31 = ∑ j : Fin 16384, f j := by
  unfold partialSum
  rw [Finset.sum_range (n := 32) (fun b => blockSum f b)]
  have e : ∀ b : Fin 32, blockSum f b.val = ∑ q : Fin 512, f (feat b q) := fun b => by
    unfold blockSum
    rw [dif_pos b.isLt]
  rw [Finset.sum_congr rfl fun b _ => e b, ← Fintype.sum_prod_type' (fun b q => f (feat b q))]
  refine Fintype.sum_equiv (finProdFinEquiv (m := 32) (n := 512)) _ _ fun p => ?_
  congr 1
  apply Fin.ext
  show 512 * p.1.val + p.2.val = p.2.val + 512 * p.1.val
  omega

end Cert.Spec

end
-- ==== Proof.PayloadAt.lean ====
import proofs.«161145_j45801531244816_2_alg».proof.Proof.Gen.KernelIdeal.Skeleton
import proofs.«161145_j45801531244816_2_alg».proof.Proof.Spec
import Idealize.ShloMosaic.Lib.ValueIdx
import Idealize.ShloMosaic.Lib.Pipeline.Value
import Idealize.ShloMosaic.Lib.ValueLayout
import Idealize.ShloMosaic.PureOps.Ideal.Laws

/-!
# The kernel body's four stored values, one element at a time

One visit of the kernel body handles 2048 rows of the activations and one block of 512 features. Over the extended reals
the four values it stores are, at an explicit pair of coordinates:

* the cleared accumulator: the zero word everywhere;
* the block of codes at row `p`, feature `q` of the block: the specification's gate applied to the pre-activation
  `(∑ d, x (p, d) * we (d, q)) + be q` and the threshold `th q` — the encoder product is a contraction into a zero
  accumulator, the bias and threshold rows are broadcast over the 2048 rows, and the choice falls back to the zero word;
* the accumulator after the block: its old value at `(p, d)` plus `∑ q, code (p, q) * wd (q, d)` over the block's 512
  features — a narrowing of the format changes no extended real, and the decoder product again enters a zero accumulator;
* the result: the accumulator at `(p, d)` plus the output bias at `d`, its one row broadcast over the 2048 rows.

A shape cast between equal shapes is the identity. A contraction over one axis, read at `(r, c)`, is re-indexed by that
axis's single coordinate `k`: the left operand is read at `(r, k)`, the right at `(k, c)`.
-/

noncomputable section

namespace Cert.KernelIdeal.PayloadAt

open Cert.KernelIdeal Cert.KernelIdeal.Gen Idealize.ShloMosaic Idealize.SL.Sem Idealize.ShloMosaic.ValueIdx

/-! ## The encoder block's contraction, [2048, 1024] × [1024, 512] -/

/-- The left operand's row is the output's row. -/
theorem enc_lhs_0 (j : S2048x512.Idx) (k : dot_S2048x1024_S1024x512_S2048x512_1_0_0_1_n_n.contr.Idx) :
    (dot_S2048x1024_S1024x512_S2048x512_1_0_0_1_n_n.lhsIdx j k 0).val = (j 0).val := by
  unfold DotDims.lhsIdx
  rw [dif_neg (show ¬(0 : Fin S2048x1024.rank) ∈ dot_S2048x1024_S1024x512_S2048x512_1_0_0_1_n_n.lhsBatch by decide),
    dif_pos (show (0 : Fin S2048x1024.rank) ∈ dot_S2048x1024_S1024x512_S2048x512_1_0_0_1_n_n.lhsNonContracting by decide)]
  rfl

/-- The right operand's column is the output's column. -/
theorem enc_rhs_1 (j : S2048x512.Idx) (k : dot_S2048x1024_S1024x512_S2048x512_1_0_0_1_n_n.contr.Idx) :
    (dot_S2048x1024_S1024x512_S2048x512_1_0_0_1_n_n.rhsIdx j k 1).val = (j 1).val := by
  unfold DotDims.rhsIdx
  rw [dif_neg (show ¬(1 : Fin S1024x512.rank) ∈ dot_S2048x1024_S1024x512_S2048x512_1_0_0_1_n_n.rhsBatch by decide),
    dif_pos (show (1 : Fin S1024x512.rank) ∈ dot_S2048x1024_S1024x512_S2048x512_1_0_0_1_n_n.rhsNonContracting by decide)]
  rfl

/-- Into a zero accumulator the encoder block's contraction at `(p, q)` is `∑ d, lhs (p, d) * rhs (d, q)`. -/
theorem enc_at (prec : Option ContractPrecision) (lhs : FVec Ideal S2048x1024 .f32) (rhs : FVec Ideal S1024x512 .f32)
    (p : Fin 2048) (q : Fin 512) :
    matmul dot_S2048x1024_S1024x512_S2048x512_1_0_0_1_n_n prec lhs rhs (constant (F := Ideal) S2048x512 .f32 0x00000000#32) (ix2 p q)
      = ∑ d : Fin 1024, lhs (ix2 p d) * rhs (ix2 d q) := by
  simp only [matmul]
  rw [Ideal.matmul_constant_zero_apply,
    ← Equiv.sum_comp (contrEquiv1 dot_S2048x1024_S1024x512_S2048x512_1_0_0_1_n_n 1024 rfl rfl).symm]
  refine Finset.sum_congr rfl fun k _ => ?_
  have hk := contrEquiv1_symm_val dot_S2048x1024_S1024x512_S2048x512_1_0_0_1_n_n 1024 rfl rfl k
  have el : dot_S2048x1024_S1024x512_S2048x512_1_0_0_1_n_n.lhsIdx (ix2 p q) ((contrEquiv1 dot_S2048x1024_S1024x512_S2048x512_1_0_0_1_n_n 1024 rfl rfl).symm k) = ix2 p k :=
    funext fun a => Fin.ext (by
      match a with
      | ⟨0, _⟩ => exact enc_lhs_0 _ _
      | ⟨1, _⟩ => exact (dot_S2048x1024_S1024x512_S2048x512_1_0_0_1_n_n.lhsIdx_val_of_single rfl _ _).trans hk)
  have er : dot_S2048x1024_S1024x512_S2048x512_1_0_0_1_n_n.rhsIdx (ix2 p q) ((contrEquiv1 dot_S2048x1024_S1024x512_S2048x512_1_0_0_1_n_n 1024 rfl rfl).symm k) = ix2 k q :=
    funext fun a => Fin.ext (by
      match a with
      | ⟨0, _⟩ => exact (dot_S2048x1024_S1024x512_S2048x512_1_0_0_1_n_n.rhsIdx_val_of_single rfl _ _).trans hk
      | ⟨1, _⟩ => exact enc_rhs_1 _ _)
  rw [el, er]

/-! ## The decoder block's contraction, [2048, 512] × [512, 1024] -/

/-- The left operand's row is the output's row. -/
theorem dec_lhs_0 (j : S2048x1024.Idx) (k : dot_S2048x512_S512x1024_S2048x1024_1_0_0_1_n_n.contr.Idx) :
    (dot_S2048x512_S512x1024_S2048x1024_1_0_0_1_n_n.lhsIdx j k 0).val = (j 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl

/-- The right operand's column is the output's column. -/
theorem dec_rhs_1 (j : S2048x1024.Idx) (k : dot_S2048x512_S512x1024_S2048x1024_1_0_0_1_n_n.contr.Idx) :
    (dot_S2048x512_S512x1024_S2048x1024_1_0_0_1_n_n.rhsIdx j k 1).val = (j 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-- Into a zero accumulator the decoder block's contraction at `(p, d)` is `∑ q, lhs (p, q) * rhs (q, d)`. -/
theorem dec_at (prec : Option ContractPrecision) (lhs : FVec Ideal S2048x512 .bf16) (rhs : FVec Ideal S512x1024 .bf16)
    (p : Fin 2048) (d : Fin 1024) :
    matmul dot_S2048x512_S512x1024_S2048x1024_1_0_0_1_n_n prec lhs rhs (constant (F := Ideal) S2048x1024 .f32 0x00000000#32) (ix2 p d)
      = ∑ q : Fin 512, lhs (ix2 p q) * rhs (ix2 q d) := by
  simp only [matmul]
  rw [Ideal.matmul_constant_zero_apply,
    ← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 p d) ((contrEquiv1 dot_S2048x512_S512x1024_S2048x1024_1_0_0_1_n_n 512 rfl rfl).symm k) = ix2 p k :=
    funext fun a => Fin.ext (by
      match a with
      | ⟨0, _⟩ => exact dec_lhs_0 _ _
      | ⟨1, _⟩ => exact (dot_S2048x512_S512x1024_S2048x1024_1_0_0_1_n_n.lhsIdx_val_of_single rfl _ _).trans hk)
  have er : dot_S2048x512_S512x1024_S2048x1024_1_0_0_1_n_n.rhsIdx (ix2 p d) ((contrEquiv1 dot_S2048x512_S512x1024_S2048x1024_1_0_0_1_n_n 512 rfl rfl).symm k) = ix2 k d :=
    funext fun a => Fin.ext (by
      match a with
      | ⟨0, _⟩ => exact (dot_S2048x512_S512x1024_S2048x1024_1_0_0_1_n_n.rhsIdx_val_of_single rfl _ _).trans hk
      | ⟨1, _⟩ => exact dec_rhs_1 _ _)
  rw [el, er]

/-! ## The four stored values -/

/-- The cleared accumulator is the zero word everywhere. -/
theorem pay1_at (j : S2048x1024.Idx) : k0_pay1 (F := Ideal) j = Cert.Spec.zeroWord := by
  unfold k0_pay1
  simp only [shapeCast_self]
  rfl

/-- The block of codes at `(p, q)`: the gate on the block's pre-activation and threshold. -/
theorem pay2_at (v3 : Vec Ideal S2048x1024 .f32) (v4 : Vec Ideal S1024x512 .f32) (v6 v10 : Vec Ideal S1x512 .f32)
    (p : Fin 2048) (q : Fin 512) :
    k0_pay2 v3 v4 v6 v10 (ix2 p q)
      = Cert.Spec.gate ((∑ d : Fin 1024, v3 (ix2 p d) * v4 (ix2 d q)) + v6 (ix2 (0 : Fin 1) q)) (v10 (ix2 (0 : Fin 1) q)) := by
  unfold k0_pay2 Cert.Spec.gate
  simp only [select_apply, cmpf_apply, addf_apply, broadcast_apply, shapeCast_self, broadcastTo_1b_ab_apply, enc_at]

/-- The accumulator after the block at `(p, d)`: its old value plus the block's codes against the decoder block. -/
theorem pay3_at (v3 : Vec Ideal S2048x1024 .f32) (v4 : Vec Ideal S1024x512 .f32) (v6 v10 : Vec Ideal S1x512 .f32)
    (v18 : Vec Ideal S2048x1024 .f32) (v19 : Vec Ideal S512x1024 .bf16) (p : Fin 2048) (d : Fin 1024) :
    k0_pay3 v3 v4 v6 v10 v18 v19 (ix2 p d)
      = v18 (ix2 p d) + ∑ q : Fin 512, k0_pay2 v3 v4 v6 v10 (ix2 p q) * v19 (ix2 q d) := by
  unfold k0_pay3
  generalize k0_pay2 v3 v4 v6 v10 = c
  simp only [shapeCast_self, addf_apply, dec_at, truncf_apply]

/-- The result at `(p, d)`: the accumulator plus the output bias's one row at `d`. -/
theorem pay4_at (v29 : Vec Ideal S2048x1024 .f32) (v30 : Vec Ideal S1x1024 .f32) (p : Fin 2048) (d : Fin 1024) :
    k0_pay4 v29 v30 (ix2 p d) = v29 (ix2 p d) + v30 (ix2 (0 : Fin 1) d) := by
  unfold k0_pay4
  simp only [shapeCast_self, addf_apply, broadcastTo_1b_ab_apply]

end Cert.KernelIdeal.PayloadAt

end
-- ==== Proof.RunningSum.lean ====
import proofs.«161145_j45801531244816_2_alg».proof.Proof.BodyValues
import proofs.«161145_j45801531244816_2_alg».proof.Proof.Blocks
import proofs.«161145_j45801531244816_2_alg».proof.Proof.PayloadAt
import proofs.«161145_j45801531244816_2_alg».proof.Proof.Spec
import proofs.«161145_j45801531244816_2_alg».proof.Proof.Gen.KernelIdeal.Value

/-!
# The running decode sum across a row tile's 32 points

Fix a device and the argument arrays. For a row `n` and an output column `d`, `term n d j` is the gated code at `(n, j)` times
the decoder weight at `(j, d)`. Point `t` handles row tile `t / 32` and feature block `t % 32`:

* the code block it writes is the specification's code on rows `2048 * (t / 32) + p`, features `512 * (t % 32) + q`;
* the running sum it leaves is what it found plus the sum of `term` over its 512 features;
* so, by induction along the points, after point `t` the running sum at `(p, d)` is the partial sum of `term` over the first
  `t % 32 + 1` feature blocks: the first point of a tile starts from the zero block (and `0 + s = s`), every later point
  adds its block to what the point before left.
-/

set_option maxRecDepth 16384

noncomputable section
open Idealize.ShloMosaic Idealize.ShloMosaic.TcCoe Idealize.SL.Sem Idealize.ShloMosaic.ValueIdx

namespace Cert.KernelIdeal.RunningSum
open Cert.KernelIdeal Cert.KernelIdeal.Gen Cert.KernelIdeal.Blocks Cert.KernelIdeal.BodyValues Cert.KernelIdeal.PayloadAt
variable (m : (ℓ : Loc nD τ sig) → Buf (Elt Ideal) ℓ)

/-- The specification's code array of this memory's arguments. -/
abbrev codeOf (c : Dev nD) : S8192x16384.Idx → Ideal .f32 :=
  Cert.Spec.code (m ((c : Thread nD τ).loc main_arg0)) (m ((c : Thread nD τ).loc main_arg1))
    (m ((c : Thread nD τ).loc main_arg3)) (m ((c : Thread nD τ).loc main_arg5))

/-- One summand of the decode: code at `(n, j)` times decoder weight at `(j, d)`. -/
def term (c : Dev nD) (n : Fin 8192) (d : Fin 1024) (j : Fin 16384) : Ideal .f32 :=
  codeOf m c (ix2 n j) * m ((c : Thread nD τ).loc main_arg2) (ix2 j d)

theorem lt128 (t : Fin cfg0.N) : t.val < 128 := lt_of_lt_of_eq t.isLt (show cfg0.N = 128 from N_0)

/-- The array row that local row `p` of point `t`'s tile is. -/
def row (t : Fin cfg0.N) (p : Fin 2048) : Fin 8192 :=
  ⟨2048 * (t.val / 32) + p.val, by have := lt128 t; have := p.isLt; omega⟩

/-- The feature block of point `t`. -/
def blk (t : Fin cfg0.N) : Fin 32 := ⟨t.val % 32, Nat.mod_lt _ (by decide)⟩

/-- The code block of point `t` is the specification's code on the point's rows and features. -/
theorem code_point (c : Dev nD) (t : Fin cfg0.N) (p : Fin 2048) (q : Fin 512) :
    k0_pay2 (F := Ideal) (iblk m c 0 t) (iblk m c 1 t) (iblk m c 2 t) (iblk m c 3 t) (ix2 p q) = codeOf m c (ix2 (row t p) (Cert.Spec.feat (blk t) q)) := by
  rw [pay2_at]
  have hj : (Cert.Spec.feat (blk t) q).val = 512 * (t.val % 32) + q.val := rfl
  have hn : (row t p).val = 2048 * (t.val / 32) + p.val := rfl
  rw [bias_blk m c t q _ hj, thresh_blk m c t q _ hj]
  unfold codeOf Cert.Spec.code Cert.Spec.pre
  congr 2
  refine Finset.sum_congr rfl fun d _ => ?_
  rw [acts_blk m c t p d _ hn, enc_blk m c t d q _ hj]

/-- What point `t` makes of a running sum `acc`: `acc` plus the block's summands. -/
theorem step_point (c : Dev nD) (t : Fin cfg0.N) (acc : Vec Ideal S2048x1024 .f32) (p : Fin 2048) (d : Fin 1024) :
    k0_pay3 (F := Ideal) (iblk m c 0 t) (iblk m c 1 t) (iblk m c 2 t) (iblk m c 3 t) acc (iblk m c 4 t) (ix2 p d)
      = acc (ix2 p d) + ∑ q : Fin 512, term m c (row t p) d (Cert.Spec.feat (blk t) q) := by
  rw [pay3_at]
  refine congrArg (acc (ix2 p d) + ·) ?_
  refine Finset.sum_congr rfl fun q _ => ?_
  rw [code_point, dec_blk m c t q d (Cert.Spec.feat (blk t) q) rfl]
  rfl

/-- After point `n`, the running sum is the partial sum over the feature blocks up to the point's. -/
theorem acc_eq (c : Dev nD) : ∀ (n : ℕ) (h : n < cfg0.N) (p : Fin 2048) (d : Fin 1024),
    (outsAt0 m c n h).2.2 (ix2 p d) = Cert.Spec.partialSum (term m c (row ⟨n, h⟩ p) d) (n % 32)
  | 0, h, p, d => by
    rw [outsAt0_A m c ⟨0, h⟩ rfl (fun h' => by have : (0 : ℕ) % 32 = 31 := h'; omega)]
    dsimp only
    rw [acc_first, step_point, pay1_at, Cert.Spec.partialSum_zero]
    show Ideal.ofBits .f32 0x00000000#32 + _ = _
    rw [Ideal.ofBits_zero_f32, zero_add]
    rfl
  | n + 1, h, p, d => by
    have hN := lt128 ⟨n + 1, h⟩
    by_cases h0 : (n + 1) % 32 = 0
    · have h1 : ¬(n + 1) % 32 = 31 := by omega
      rw [outsAt0_A m c ⟨n + 1, h⟩ h0 h1]
      dsimp only
      rw [acc_first, step_point, pay1_at, h0, Cert.Spec.partialSum_zero]
      show Ideal.ofBits .f32 0x00000000#32 + _ = _
      rw [Ideal.ofBits_zero_f32, zero_add]
      have e : blk ⟨n + 1, h⟩ = 0 := Fin.ext h0
      rw [e]
    · have hprev : (outsAt0 m c n (Nat.lt_of_succ_lt h)).2.2 (ix2 p d)
          = Cert.Spec.partialSum (term m c (row ⟨n + 1, h⟩ p) d) (n % 32) := by
        rw [acc_eq c n (Nat.lt_of_succ_lt h) p d]
        have er : row ⟨n, Nat.lt_of_succ_lt h⟩ p = row ⟨n + 1, h⟩ p := Fin.ext (by
          show 2048 * (n / 32) + p.val = 2048 * ((n + 1) / 32) + p.val
          have : (n + 1) / 32 = n / 32 := by omega
          rw [this])
        rw [er]
      have hk : (n + 1) % 32 = n % 32 + 1 := by omega
      have hlt : n % 32 + 1 < 32 := by omega
      have hb : blk ⟨n + 1, h⟩ = ⟨n % 32 + 1, hlt⟩ := Fin.ext hk
      by_cases h1 : (n + 1) % 32 = 31
      · rw [outsAt0_C m c ⟨n + 1, h⟩ h0 h1]
        dsimp only
        rw [acc_last, step_point]
        show (outsAt0 m c n _).2.2 (ix2 p d) + _ = _
        rw [hprev, hk, Cert.Spec.partialSum_succ _ _ hlt, hb]
      · rw [outsAt0_B m c ⟨n + 1, h⟩ h0 h1]
        dsimp only
        rw [acc_mid, step_point]
        show (outsAt0 m c n _).2.2 (ix2 p d) + _ = _
        rw [hprev, hk, Cert.Spec.partialSum_succ _ _ hlt, hb]

end Cert.KernelIdeal.RunningSum
end
-- ==== Proof.Final.lean ====
import proofs.«161145_j45801531244816_2_alg».proof.Proof.RunningSum
import proofs.«161145_j45801531244816_2_alg».proof.Proof.Gen.KernelIdeal.Value

/-!
# The two result arrays of the kernel

Every point writes its code block back, and the 128 blocks tile the [8192, 16384] code array: entry `(n, j)` lies in the
block of point `32 * (n / 2048) + j / 512`. Only a row tile's last point writes the reconstruction back, its block being the
tile's 2048 whole rows: entry `(n, d)` lies in the block of point `32 * (n / 2048) + 31`. At that point the running decode
sum has taken in all 32 feature blocks, so it is the whole sum over the 16384 features, and the block written is that sum
plus the output bias. Hence the code array ends as the specification's code and the reconstruction array as the
specification's reconstruction, both as functions of the argument arrays.
-/

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Final
open Cert.KernelIdeal Cert.KernelIdeal.Gen Cert.KernelIdeal.Blocks Cert.KernelIdeal.BodyValues Cert.KernelIdeal.PayloadAt
open Cert.KernelIdeal.RunningSum
variable (m : (ℓ : Loc nD τ sig) → Buf (Elt Ideal) ℓ) (ρ : Dev nD → PrngReg)

/-- The specification's reconstruction array of this memory's arguments. -/
abbrev reconOf (c : Dev nD) : S8192x1024.Idx → Ideal .f32 :=
  Cert.Spec.recon (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-! ## Which entries a point's blocks hold -/

theorem mem_code_blk (t : Fin cfg0.N) (i : S8192x16384.Idx) :
    i ∈ ((cfg0.win 7).blk t).view.set ↔ ∀ a : Fin 2, win0_7.index t a * S2048x512.size a ≤ (i a).val ∧ (i a).val < win0_7.index t a * S2048x512.size a + S2048x512.size a := by
  show i ∈ ((View.whole main_v4_1).slice (win0_7.rect t)).set ↔ _
  rw [View.set_slice_whole, Rect.mem_set_unit]
  exact Iff.rfl

theorem mem_recon_blk (t : Fin cfg0.N) (i : S8192x1024.Idx) :
    i ∈ ((cfg0.win 6).blk t).view.set ↔ ∀ a : Fin 2, win0_6.index t a * S2048x1024.size a ≤ (i a).val ∧ (i a).val < win0_6.index t a * S2048x1024.size a + S2048x1024.size a := by
  show i ∈ ((View.whole main_v4_0).slice (win0_6.rect t)).set ↔ _
  rw [View.set_slice_whole, Rect.mem_set_unit]
  exact Iff.rfl

/-- Every entry of the code array is in the block of the point of its row tile and feature block. -/
theorem code_cover (i : S8192x16384.Idx) : ∃ t : Fin cfg0.N, (cfg0.win 7).flush t = true ∧ i ∈ ((cfg0.win 7).blk t).view.set := by
  have hi0 : (i 0).val < 8192 := (i 0).isLt
  have hi1 : (i 1).val < 16384 := (i 1).isLt
  have hN : cfg0.N = 128 := N_0
  let t : Fin cfg0.N := ⟨32 * ((i 0).val / 2048) + (i 1).val / 512, by rw [hN]; omega⟩
  refine ⟨t, flush0_7 t, ?_⟩
  rw [mem_code_blk]
  obtain ⟨-, -, -, -, -, -, -, -, -, -, -, -, -, -, e0, e1⟩ := idx_facts t
  have tv : t.val = 32 * ((i 0).val / 2048) + (i 1).val / 512 := rfl
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 512 ≤ (i 1).val ∧ (i 1).val < win0_7.index t (1 : Fin 2) * 512 + 512; omega

/-- Every entry of the reconstruction is in the block of its row tile's last point. -/
theorem recon_cover (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 128 := N_0
  let t : Fin cfg0.N := ⟨32 * ((i 0).val / 2048) + 31, by rw [hN]; omega⟩
  have tv : t.val = 32 * ((i 0).val / 2048) + 31 := rfl
  refine ⟨t, (flush0_6 t).mpr (by omega), ?_⟩
  rw [mem_recon_blk]
  obtain ⟨-, -, -, -, -, -, -, -, -, -, -, -, e0, e1, -⟩ := idx_facts t
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 1024 ≤ (i 1).val ∧ (i 1).val < win0_6.index t (1 : Fin 2) * 1024 + 1024; omega

/-! ## What is written back -/

/-- At every point the code buffer holds the gated pre-activation of the point's input blocks. -/
theorem code_buf (c : Dev nD) (t : Fin cfg0.N) :
    (outsAt0 m c t.val t.isLt).2.1 = k0_pay2 (F := Ideal) (iblk m c 0 t) (iblk m c 1 t) (iblk m c 2 t) (iblk m c 3 t) := by
  by_cases h0 : t.val % 32 = 0
  · have h1 : ¬t.val % 32 = 31 := by omega
    rw [outsAt0_A m c t h0 h1]
    dsimp only
    rw [code_first]
  · by_cases h1 : t.val % 32 = 31
    · rw [outsAt0_C m c t h0 h1]
      dsimp only
      rw [code_last]
    · rw [outsAt0_B m c t h0 h1]
      dsimp only
      rw [code_mid]

/-- What a point writes back to the code array is its block of the specification's code. -/
theorem code_flushed (c : Dev nD) (t : Fin cfg0.N) (hf : (cfg0.win 7).flush t = true) :
    (dats m 0 c).flushed 7 t = ((cfg0.win 7).blk t).view.read (Elt Ideal) (codeOf m c) := by
  rw [Cert.KernelIdeal.Value.flushed7, code_buf]
  obtain ⟨-, -, -, -, -, -, -, -, -, -, -, -, -, -, e0, e1⟩ := idx_facts t
  funext j
  obtain ⟨p, q, rfl⟩ : ∃ (p : Fin 2048) (q : Fin 512), j = ix2 p q := ⟨j 0, j 1, eq_ix2 j⟩
  show k0_pay2 (F := Ideal) (iblk m c 0 t) (iblk m c 1 t) (iblk m c 2 t) (iblk m c 3 t) (ix2 p q) = codeOf m c (((cfg0.win 7).blk t).view.emb (ix2 p q))
  rw [code_point]
  refine congrArg (codeOf m c) (funext fun a => Fin.ext ?_)
  match a with
  | ⟨0, _⟩ => show 2048 * (t.val / 32) + p.val = win0_7.index t (0 : Fin 2) * 2048 + 1 * p.val; omega
  | ⟨1, _⟩ => show 512 * (t.val % 32) + q.val = win0_7.index t (1 : Fin 2) * 512 + 1 * q.val; omega

/-- What a tile's last point writes back to the reconstruction is its block of the specification's reconstruction. -/
theorem recon_flushed (c : Dev nD) (t : Fin cfg0.N) (hf : (cfg0.win 6).flush t = true) :
    (dats m 0 c).flushed 6 t = ((cfg0.win 6).blk t).view.read (Elt Ideal) (reconOf m c) := by
  have h1 : t.val % 32 = 31 := (flush0_6 t).mp hf
  have h0 : ¬t.val % 32 = 0 := by omega
  have hacc : k0_pay3 (F := Ideal) (iblk m c 0 t) (iblk m c 1 t) (iblk m c 2 t) (iblk m c 3 t) (outsAt0 m c (t.val - 1) (Nat.lt_of_le_of_lt (Nat.sub_le _ _) t.isLt)).2.2 (iblk m c 4 t)
      = (outsAt0 m c t.val t.isLt).2.2 := by
    rw [outsAt0_C m c t h0 h1]
    dsimp only
    rw [acc_last]
  rw [Cert.KernelIdeal.Value.flushed6_C m c t h0 h1, recon_last, hacc]
  obtain ⟨-, -, -, -, -, -, -, -, -, -, -, -, e0, e1, -⟩ := idx_facts t
  funext j
  obtain ⟨p, d, rfl⟩ : ∃ (p : Fin 2048) (d : Fin 1024), j = ix2 p d := ⟨j 0, j 1, eq_ix2 j⟩
  show k0_pay4 (F := Ideal) (outsAt0 m c t.val t.isLt).2.2 (iblk m c 5 t) (ix2 p d) = reconOf m c (((cfg0.win 6).blk t).view.emb (ix2 p d))
  rw [pay4_at, acc_eq m c t.val t.isLt p d, h1, Cert.Spec.partialSum_last, outbias_blk m c t d]
  have ei : ((cfg0.win 6).blk t).view.emb (ix2 p d) = ix2 (row t p) d := funext fun a => Fin.ext (by
    match a with
    | ⟨0, _⟩ => show win0_6.index t (0 : Fin 2) * 2048 + 1 * p.val = 2048 * (t.val / 32) + p.val; omega
    | ⟨1, _⟩ => show win0_6.index t (1 : Fin 2) * 1024 + 1 * d.val = d.val; omega)
  rw [ei]
  rfl

/-! ## The arrays after the run -/

theorem code_final (c : Dev nD) : (dats m 0 c).arrAt 7 cfg0.N = codeOf m c :=
  (dats m 0 c).arrAt_eq_of_cover 7 (codeOf m c) (code_flushed m c) code_cover

theorem recon_final (c : Dev nD) : (dats m 0 c).arrAt 6 cfg0.N = reconOf m c :=
  (dats m 0 c).arrAt_eq_of_cover 6 (reconOf m c) (recon_flushed m c) recon_cover

/-- Every weakly fair execution of the kernel's program ends with the first result the specification's reconstruction, the
    second its code, and the arguments as they were. -/
theorem run : θ_run defs (onTc (τ := τ) (main (F := Ideal))) ⟨m, fun _ => 0, ρ⟩ fun r => ∀ c : Dev nD,
      r.2.mem ((c : Thread nD τ).loc main_v4_0) = reconOf m c
      ∧ r.2.mem ((c : Thread nD τ).loc main_v4_1) = codeOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (recon_final m c), (h c).2.1.trans (code_final m c), (h c).2.2⟩)
    (Cert.KernelIdeal.Value.run_blocks m ρ)

end Cert.KernelIdeal.Final
end
-- ==== Proof.RefIsSpec.lean ====
import proofs.«161145_j45801531244816_2_alg».proof.Proof.Gen.ReferenceIdeal.Read
import proofs.«161145_j45801531244816_2_alg».proof.Proof.Spec

/-!
# The reference program computes the specification

The reference program is a chain of fourteen array operations. Read one element at a time it is: a contraction of a row of the
activations against a column of the encoder weights, the feature's bias added; a comparison of that pre-activation with the
feature's threshold; a choice between the pre-activation and the zero word; a contraction of the resulting row of codes against
a column of the decoder weights, the output bias added. The broadcasts in between only re-index: a bias or threshold vector
read at `(n, j)` through its two broadcasts is the vector at `j`.

So the two results are, element by element, the specification's `code` and `recon`. Nothing about the extended reals is
used beyond two facts: the float addition there is `+`, and a contraction there is the sum of the products. The zero word is
the same term on both sides and is never evaluated.
-/

noncomputable section

namespace Cert.RefIsSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The index functions of the program, by coordinates -/

/-- The encoder contraction reads the activations at row `i 0`, column `k`. -/
theorem lidx_v0 (i : S8192x16384.Idx) (k : Fin 1024) : lidx_main_v0 i k = ix2 (i 0) k :=
  funext fun a => by match a with | ⟨0, _⟩ => rfl | ⟨1, _⟩ => rfl

/-- The encoder contraction reads the encoder weights at row `k`, column `i 1`. -/
theorem ridx_v0 (i : S8192x16384.Idx) (k : Fin 1024) : ridx_main_v0 i k = ix2 k (i 1) :=
  funext fun a => by match a with | ⟨0, _⟩ => rfl | ⟨1, _⟩ => rfl

/-- The encoder bias, broadcast twice, is read at the feature `i 1`. -/
theorem idx_v1_v2 (i : S8192x16384.Idx) : idx_main_v1 (idx_main_v2 i) = ix1 (i 1) :=
  funext fun a => by match a with | ⟨0, _⟩ => rfl

/-- The threshold, broadcast twice, is read at the feature `i 1`. -/
theorem idx_v4_v5 (i : S8192x16384.Idx) : idx_main_v4 (idx_main_v5 i) = ix1 (i 1) :=
  funext fun a => by match a with | ⟨0, _⟩ => rfl

/-- The decoder contraction reads the code at row `i 0`, feature `k`. -/
theorem lidx_v8 (i : S8192x1024.Idx) (k : Fin 16384) : lidx_main_v8 i k = ix2 (i 0) k :=
  funext fun a => by match a with | ⟨0, _⟩ => rfl | ⟨1, _⟩ => rfl

/-- The decoder contraction reads the decoder weights at row `k`, column `i 1`. -/
theorem ridx_v8 (i : S8192x1024.Idx) (k : Fin 16384) : ridx_main_v8 i k = ix2 k (i 1) :=
  funext fun a => by match a with | ⟨0, _⟩ => rfl | ⟨1, _⟩ => rfl

/-- The output bias, broadcast twice, is read at the column `i 1`. -/
theorem idx_v9_v10 (i : S8192x1024.Idx) : idx_main_v9 (idx_main_v10 i) = ix1 (i 1) :=
  funext fun a => by match a with | ⟨0, _⟩ => rfl

/-! ## The pre-activation -/

/-- The program's sum of the encoder contraction and the broadcast bias is the specification's pre-activation. -/
theorem pre_eq (x0 : (⟨S8192x1024, .f32⟩ : BufTy).Contents (Elt Ideal)) (x1 : (⟨S1024x16384, .f32⟩ : BufTy).Contents (Elt Ideal))
    (x3 : (⟨S16384, .f32⟩ : BufTy).Contents (Elt Ideal)) (i : S8192x16384.Idx) :
    val_main_v3 (F := Ideal) x0 x1 x3 i = Cert.Spec.pre x0 x1 x3 (i 0) (i 1) := by
  rw [val_main_v3_apply, val_main_v0_apply, val_main_v2_apply, val_main_v1_apply, idx_v1_v2]
  simp only [lidx_v0, ridx_v0]
  rfl

/-! ## The gated code -/

/-- The program's second result, the array of codes, is the specification's gated code. -/
theorem code_eq (x0 : (⟨S8192x1024, .f32⟩ : BufTy).Contents (Elt Ideal)) (x1 : (⟨S1024x16384, .f32⟩ : BufTy).Contents (Elt Ideal))
    (x3 x5 : (⟨S16384, .f32⟩ : BufTy).Contents (Elt Ideal)) :
    Cert.ReferenceIdeal.Read.val_main_v7 (F := Ideal) x0 x1 x3 x5 = Cert.Spec.code x0 x1 x3 x5 := by
  funext i
  rw [val_main_v7_apply, val_main_v6_apply, val_main_v5_apply, val_main_v4_apply, val_main_call0_v0_apply,
    val_main_cst_apply, idx_v4_v5, pre_eq]
  rfl

/-! ## The reconstruction -/

/-- The program's first result is the specification's reconstruction. -/
theorem recon_eq (x0 : (⟨S8192x1024, .f32⟩ : BufTy).Contents (Elt Ideal)) (x1 : (⟨S1024x16384, .f32⟩ : BufTy).Contents (Elt Ideal))
    (x2 : (⟨S16384x1024, .f32⟩ : BufTy).Contents (Elt Ideal)) (x3 : (⟨S16384, .f32⟩ : BufTy).Contents (Elt Ideal))
    (x4 : (⟨S1024, .f32⟩ : BufTy).Contents (Elt Ideal)) (x5 : (⟨S16384, .f32⟩ : BufTy).Contents (Elt Ideal)) :
    Cert.ReferenceIdeal.Read.val_main_v11 (F := Ideal) x0 x1 x2 x3 x4 x5 = Cert.Spec.recon x0 x1 x2 x3 x4 x5 := by
  funext i
  rw [val_main_v11_apply, val_main_v8_apply, val_main_v10_apply, val_main_v9_apply, idx_v9_v10, code_eq]
  simp only [lidx_v8, ridx_v8]
  rfl

end Cert.RefIsSpec

end
-- ==== Proof.lean ====
/-
  A sparse autoencoder with a threshold gate, as a kernel and as a reference program: both end, from memories agreeing on the
  six argument arrays, with the same two results over the extended reals.

  The reference computes, for activations `x`, encoder weights, bias and thresholds, decoder weights and output bias,
  the code `gate ((∑ d, x (n, d) * we (d, j)) + be j) (th j)` — the pre-activation where it exceeds its threshold, the zero
  word elsewhere — and the reconstruction `(∑ j, code (n, j) * wd (j, d)) + bd d`. The kernel walks a 4 × 32 grid of row tiles
  and feature blocks. At each point it writes the point's block of the code; it keeps, per row tile, a running sum of
  code times decoder weights that starts from zero at the tile's first feature block and takes one block of 512 features
  in at each point; at the tile's last block it writes the running sum plus the output bias as the tile's rows of the
  reconstruction. Changes of float format are the identity on extended reals, and a product into a zero accumulator is
  the plain sum of products, so the only difference between the two programs is the grouping of the decode sum into 32
  consecutive blocks — equal by associativity and commutativity of addition alone, with no use of finiteness.

  The modules: `Spec` states the two results as functions of the argument arrays and the block-by-block law; `RefIsSpec`
  reads the reference's operations as those functions; `PayloadAt` reads the kernel body's stored values at coordinates;
  `BodyValues` reads what one point's stores leave; `Blocks` reads a point's input blocks as rectangles of the arguments;
  `RunningSum` is the induction along a tile's points; `Final` covers the two result arrays with the blocks written back.
  The word-level kernel's and the idealized kernel's frames are the generated ones; the reference's frame is its generated
  run with the results dropped; the idealization rewrote nothing, so it is preserved trivially.
-/
import proofs.«161145_j45801531244816_2_alg».proof.Defs
import proofs.«161145_j45801531244816_2_alg».proof.Proof.Gen.Kernel
import proofs.«161145_j45801531244816_2_alg».proof.Proof.Gen.Kernel.Skeleton
import proofs.«161145_j45801531244816_2_alg».proof.Proof.Gen.Kernel.Launch
import proofs.«161145_j45801531244816_2_alg».proof.Proof.Gen.Kernel.Points
import proofs.«161145_j45801531244816_2_alg».proof.Proof.Gen.Kernel.Frame
import proofs.«161145_j45801531244816_2_alg».proof.Proof.Gen.KernelIdeal
import proofs.«161145_j45801531244816_2_alg».proof.Proof.Gen.KernelIdeal.Skeleton
import proofs.«161145_j45801531244816_2_alg».proof.Proof.Gen.KernelIdeal.Launch
import proofs.«161145_j45801531244816_2_alg».proof.Proof.Gen.KernelIdeal.Points
import proofs.«161145_j45801531244816_2_alg».proof.Proof.Gen.KernelIdeal.Frame
import proofs.«161145_j45801531244816_2_alg».proof.Proof.Gen.ReferenceIdeal
import proofs.«161145_j45801531244816_2_alg».proof.Proof.Gen.KernelIdeal.Value
import proofs.«161145_j45801531244816_2_alg».proof.Proof.Gen.ReferenceIdeal.Run
import proofs.«161145_j45801531244816_2_alg».proof.Proof.Gen.ReferenceIdeal.Read
import proofs.«161145_j45801531244816_2_alg».proof.Proof.Gen.Pre_finite_inputs
import proofs.«161145_j45801531244816_2_alg».proof.Proof.Final
import proofs.«161145_j45801531244816_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the specification's reconstruction and code of their (agreeing) arguments. -/
theorem algebraic : Cert.algebraic_KernelIdeal_ReferenceIdeal := by
  intro m ρ m' ρ' _ hagree
  refine ⟨fun c => Cert.KernelIdeal.Final.reconOf m c, fun c => Cert.KernelIdeal.RunningSum.codeOf m c,
    Cert.KernelIdeal.Final.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v11_eq, Cert.RefIsSpec.recon_eq,
      (hagree c).1, (hagree c).2.1, (hagree c).2.2.1, (hagree c).2.2.2.1, (hagree c).2.2.2.2.1, (hagree c).2.2.2.2.2]
  · rw [(h c).2.1, Cert.ReferenceIdeal.Read.val_main_v7_eq, Cert.RefIsSpec.code_eq,
      (hagree c).1, (hagree c).2.1, (hagree c).2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
